-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x256 : Shape := ⟨4, ![8, 64, 512, 256]⟩
abbrev S8x256 : Shape := ⟨2, ![8, 256]⟩
abbrev S15x4 : Shape := ⟨2, ![15, 4]⟩
abbrev S_ : Shape := ⟨0, ![]⟩

class Facts : Prop where
  bcast_S_S8x64x512x256 : S_.BroadcastsInDim S8x64x512x256 (![] : Fin 0 → Fin S8x64x512x256.rank)
  reducesTo_S8x64x512x256_S_d0_1_2_3 : S8x64x512x256.ReducesTo [0, 1, 2, 3] S_
  h_S_ : 0 < S_.numel
  bcast_S_S15x4 : S_.BroadcastsInDim S15x4 (![] : Fin 0 → Fin S15x4.rank)
  reducesTo_S15x4_S_d0_1 : S15x4.ReducesTo [0, 1] S_

variable [Facts]

def fn {F : FTy → Type} [FloatOps F] (main_arg0 : FVec F S8x64x512x256 .f32) (main_arg1 : IVec S8x256 32) (main_arg2 : FVec F S15x4 .f32) : IVec S_ 1 :=
  let main_v0 : FVec F S8x64x512x256 .f32 := Host.absf main_arg0
  let main_cst : FVec F S_ .f32 := constant S_ .f32 0x7F800000#32
  let main_v1 : FVec F S8x64x512x256 .f32 := broadcastInDim S8x64x512x256 ![] bcast_S_S8x64x512x256 main_cst
  let main_v2 : IVec S8x64x512x256 1 := cmpf .olt main_v0 main_v1
  let main_c : IVec S_ 1 := constantI S_ 1 1#1
  let main_v3 : IVec S_ 1 := (fun x v => Host.reduce IntOp.andi x v reducesTo_S8x64x512x256_S_d0_1_2_3 h_S_) main_v2 main_c
  let main_v4 : FVec F S15x4 .f32 := Host.absf main_arg2
  let main_cst_0 : FVec F S_ .f32 := constant S_ .f32 0x7F800000#32
  let main_v5 : FVec F S15x4 .f32 := broadcastInDim S15x4 ![] bcast_S_S15x4 main_cst_0
  let main_v6 : IVec S15x4 1 := cmpf .olt main_v4 main_v5
  let main_c_1 : IVec S_ 1 := constantI S_ 1 1#1
  let main_v7 : IVec S_ 1 := (fun x v => Host.reduce IntOp.andi x v reducesTo_S15x4_S_d0_1 h_S_) main_v6 main_c_1
  let main_v8 : IVec S_ 1 := andi main_v3 main_v7
  main_v8
-- ==== Kernel.lean ====
abbrev S8x64x512x256 : Shape := ⟨4, ![8, 64, 512, 256]⟩
abbrev S8x256 : Shape := ⟨2, ![8, 256]⟩
abbrev S15x4 : Shape := ⟨2, ![15, 4]⟩
abbrev S_ : Shape := ⟨0, ![]⟩
abbrev S8x256x1 : Shape := ⟨3, ![8, 256, 1]⟩
abbrev S8x256x4 : Shape := ⟨3, ![8, 256, 4]⟩
abbrev S8x1x1x256 : Shape := ⟨4, ![8, 1, 1, 256]⟩
abbrev S1x8x512x256 : Shape := ⟨4, ![1, 8, 512, 256]⟩
abbrev S1x1x1x256 : Shape := ⟨4, ![1, 1, 1, 256]⟩

abbrev nBuf : Space → Nat
  | .hbm => 25
  | .vmem => 12
  | .smem => 0
  | _ => 0

abbrev bufTy : (tb : Table) → Fin (tcTables nBuf tb) → BufTy
  | .hbm, ⟨0, _⟩ => ⟨S8x64x512x256, .f32⟩
  | .hbm, ⟨1, _⟩ => ⟨S8x256, .i32⟩
  | .hbm, ⟨2, _⟩ => ⟨S15x4, .f32⟩
  | .hbm, ⟨3, _⟩ => ⟨S_, .i32⟩
  | .hbm, ⟨4, _⟩ => ⟨S8x256, .i32⟩
  | .hbm, ⟨5, _⟩ => ⟨S8x256, .i1⟩
  | .hbm, ⟨6, _⟩ => ⟨S_, .i32⟩
  | .hbm, ⟨7, _⟩ => ⟨S8x256, .i32⟩
  | .hbm, ⟨8, _⟩ => ⟨S8x256, .i32⟩
  | .hbm, ⟨9, _⟩ => ⟨S8x256, .i32⟩
  | .hbm, ⟨10, _⟩ => ⟨S8x256x1, .i32⟩
  | .hbm, ⟨11, _⟩ => ⟨S8x256x4, .f32⟩
  | .hbm, ⟨12, _⟩ => ⟨S8x256x1, .f32⟩
  | .hbm, ⟨13, _⟩ => ⟨S8x256, .f32⟩
  | .hbm, ⟨14, _⟩ => ⟨S8x1x1x256, .f32⟩
  | .hbm, ⟨15, _⟩ => ⟨S8x256x1, .f32⟩
  | .hbm, ⟨16, _⟩ => ⟨S8x256, .f32⟩
  | .hbm, ⟨17, _⟩ => ⟨S8x1x1x256, .f32⟩
  | .hbm, ⟨18, _⟩ => ⟨S8x256x1, .f32⟩
  | .hbm, ⟨19, _⟩ => ⟨S8x256, .f32⟩
  | .hbm, ⟨20, _⟩ => ⟨S8x1x1x256, .f32⟩
  | .hbm, ⟨21, _⟩ => ⟨S8x256x1, .f32⟩
  | .hbm, ⟨22, _⟩ => ⟨S8x256, .f32⟩
  | .hbm, ⟨23, _⟩ => ⟨S8x1x1x256, .f32⟩
  | .hbm, ⟨24, _⟩ => ⟨S8x64x512x256, .f32⟩
  | .local _ .vmem, ⟨0, _⟩ => ⟨S1x8x512x256, .f32⟩
  | .local _ .vmem, ⟨1, _⟩ => ⟨S1x8x512x256, .f32⟩
  | .local _ .vmem, ⟨2, _⟩ => ⟨S1x1x1x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1x1x1x256, .f32⟩
  | .local _ .vmem, ⟨6, _⟩ => ⟨S1x1x1x256, .f32⟩
  | .local _ .vmem, ⟨7, _⟩ => ⟨S1x1x1x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1x8x512x256, .f32⟩
  | .local _ .vmem, ⟨11, _⟩ => ⟨S1x8x512x256, .f32⟩
  | _, _ => ⟨S8x64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  slices_S8x256x4_S8x256x1_0_0_0 : S8x256x4.Slices ![0, 0, 0] S8x256x1
  shapeCasts_S8x256x1_S8x256 : S8x256x1.ShapeCasts S8x256
  bcast_S8x256_S8x1x1x256_0_3 : S8x256.BroadcastsInDim S8x1x1x256 (![0, 3] : Fin 2 → Fin S8x1x1x256.rank)
  slices_S8x256x4_S8x256x1_0_0_1 : S8x256x4.Slices ![0, 0, 1] S8x256x1
  slices_S8x256x4_S8x256x1_0_0_2 : S8x256x4.Slices ![0, 0, 2] S8x256x1
  slices_S8x256x4_S8x256x1_0_0_3 : S8x256x4.Slices ![0, 0, 3] S8x256x1
  inb_S1x8x512x256_S1x8x512x256_0_0_0_0 : ∀ a, (![0, 0, 0, 0] : Fin 4 → Nat) a + S1x8x512x256.size a ≤ S1x8x512x256.size a
  h_S1x8x512x256 : 0 < S1x8x512x256.numel
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S1x1x1x256_S1x1x1x256 : S1x1x1x256.ShapeCasts S1x1x1x256
  broadcasts_S1x1x1x256_S1x8x512x256 : S1x1x1x256.Broadcasts S1x8x512x256
  gather_S15x4_S8x256x1_S8x256x4_2_0_n_n_0_2_14_wf : GatherDims.WF S15x4 S8x256x1 S8x256x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x256.size a ≤ S8x64x512x256.size a
  hwx0_0 : ∀ i : grid0.Coords, EltTy.bits .f32 = 32 ∨ (Rect.block (s := S8x64x512x256) S1x8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x256.size a ≤ S8x1x1x256.size a
  hwx0_1 : ∀ i : grid0.Coords, EltTy.bits .f32 = 32 ∨ (Rect.block (s := S8x1x1x256) S1x1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x256.size a ≤ S8x1x1x256.size a
  hwx0_2 : ∀ i : grid0.Coords, EltTy.bits .f32 = 32 ∨ (Rect.block (s := S8x1x1x256) S1x1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x256.size a ≤ S8x1x1x256.size a
  hwx0_3 : ∀ i : grid0.Coords, EltTy.bits .f32 = 32 ∨ (Rect.block (s := S8x1x1x256) S1x1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x256.size a ≤ S8x1x1x256.size a
  hwx0_4 : ∀ i : grid0.Coords, EltTy.bits .f32 = 32 ∨ (Rect.block (s := S8x1x1x256) S1x1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x512x256.size a ≤ S8x64x512x256.size a
  hwx0_5 : ∀ i : grid0.Coords, EltTy.bits .f32 = 32 ∨ (Rect.block (s := S8x64x512x256) S1x8x512x256.size (cc0_transform_5 i) (hinb0_5 i)).WholeWords (EltTy.packing .f32)

variable [Facts₀]

def gather_S15x4_S8x256x1_S8x256x4_2_0_n_n_0_2_14 : GatherDims S15x4 S8x256x1 S8x256x4 where
  offsetDims := [2]
  collapsedSliceDims := [0]
  operandBatchingDims := []
  startIndicesBatchingDims := []
  startIndexMap := [0]
  indexVectorDim := 2
  sliceSizes := ![1, 4]
  wf := gather_S15x4_S8x256x1_S8x256x4_2_0_n_n_0_2_14_wf

abbrev win0_0 : Pipeline.Window sig grid0 :=
  Pipeline.Window.ofSpec (Memref.whole main_arg0) S1x8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x8x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x512x256 : Shape := ⟨4, ![8, 64, 512, 256]⟩
abbrev S8x256 : Shape := ⟨2, ![8, 256]⟩
abbrev S15x4 : Shape := ⟨2, ![15, 4]⟩
abbrev S_ : Shape := ⟨0, ![]⟩
abbrev S8x256x1 : Shape := ⟨3, ![8, 256, 1]⟩
abbrev S8x256x4 : Shape := ⟨3, ![8, 256, 4]⟩
abbrev S8x1x1x256 : Shape := ⟨4, ![8, 1, 1, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x64x512x256, .f32⟩
  | .hbm, ⟨1, _⟩ => ⟨S8x256, .i32⟩
  | .hbm, ⟨2, _⟩ => ⟨S15x4, .f32⟩
  | .hbm, ⟨3, _⟩ => ⟨S_, .i32⟩
  | .hbm, ⟨4, _⟩ => ⟨S8x256, .i32⟩
  | .hbm, ⟨5, _⟩ => ⟨S8x256, .i1⟩
  | .hbm, ⟨6, _⟩ => ⟨S_, .i32⟩
  | .hbm, ⟨7, _⟩ => ⟨S8x256, .i32⟩
  | .hbm, ⟨8, _⟩ => ⟨S8x256, .i32⟩
  | .hbm, ⟨9, _⟩ => ⟨S8x256, .i32⟩
  | .hbm, ⟨10, _⟩ => ⟨S8x256x1, .i32⟩
  | .hbm, ⟨11, _⟩ => ⟨S8x256x4, .f32⟩
  | .hbm, ⟨12, _⟩ => ⟨S8x256x1, .f32⟩
  | .hbm, ⟨13, _⟩ => ⟨S8x256, .f32⟩
  | .hbm, ⟨14, _⟩ => ⟨S8x1x1x256, .f32⟩
  | .hbm, ⟨15, _⟩ => ⟨S8x256x1, .f32⟩
  | .hbm, ⟨16, _⟩ => ⟨S8x256, .f32⟩
  | .hbm, ⟨17, _⟩ => ⟨S8x1x1x256, .f32⟩
  | .hbm, ⟨18, _⟩ => ⟨S8x256x1, .f32⟩
  | .hbm, ⟨19, _⟩ => ⟨S8x256, .f32⟩
  | .hbm, ⟨20, _⟩ => ⟨S8x1x1x256, .f32⟩
  | .hbm, ⟨21, _⟩ => ⟨S8x256x1, .f32⟩
  | .hbm, ⟨22, _⟩ => ⟨S8x256, .f32⟩
  | .hbm, ⟨23, _⟩ => ⟨S8x1x1x256, .f32⟩
  | .hbm, ⟨24, _⟩ => ⟨S8x64x512x256, .f32⟩
  | .hbm, ⟨25, _⟩ => ⟨S8x64x512x256, .f32⟩
  | .hbm, ⟨26, _⟩ => ⟨S8x64x512x256, .f32⟩
  | .hbm, ⟨27, _⟩ => ⟨S8x64x512x256, .f32⟩
  | .hbm, ⟨28, _⟩ => ⟨S8x64x512x256, .f32⟩
  | .hbm, ⟨29, _⟩ => ⟨S8x64x512x256, .f32⟩
  | .hbm, ⟨30, _⟩ => ⟨S_, .f32⟩
  | .hbm, ⟨31, _⟩ => ⟨S8x64x512x256, .f32⟩
  | .hbm, ⟨32, _⟩ => ⟨S8x64x512x256, .f32⟩
  | .hbm, ⟨33, _⟩ => ⟨S_, .f32⟩
  | .hbm, ⟨34, _⟩ => ⟨S8x64x512x256, .f32⟩
  | .hbm, ⟨35, _⟩ => ⟨S8x64x512x256, .f32⟩
  | .hbm, ⟨36, _⟩ => ⟨S8x64x512x256, .f32⟩
  | .hbm, ⟨37, _⟩ => ⟨S8x64x512x256, .f32⟩
  | .hbm, ⟨38, _⟩ => ⟨S8x64x512x256, .f32⟩
  | .hbm, ⟨39, _⟩ => ⟨S8x64x512x256, .f32⟩
  | _, _ => ⟨S8x64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  slices_S8x256x4_S8x256x1_0_0_0 : S8x256x4.Slices ![0, 0, 0] S8x256x1
  shapeCasts_S8x256x1_S8x256 : S8x256x1.ShapeCasts S8x256
  bcast_S8x256_S8x1x1x256_0_3 : S8x256.BroadcastsInDim S8x1x1x256 (![0, 3] : Fin 2 → Fin S8x1x1x256.rank)
  slices_S8x256x4_S8x256x1_0_0_1 : S8x256x4.Slices ![0, 0, 1] S8x256x1
  slices_S8x256x4_S8x256x1_0_0_2 : S8x256x4.Slices ![0, 0, 2] S8x256x1
  slices_S8x256x4_S8x256x1_0_0_3 : S8x256x4.Slices ![0, 0, 3] S8x256x1
  bcast_S8x1x1x256_S8x64x512x256_0_1_2_3 : S8x1x1x256.BroadcastsInDim S8x64x512x256 (![0, 1, 2, 3] : Fin 4 → Fin S8x64x512x256.rank)
  bcast_S_S8x64x512x256 : S_.BroadcastsInDim S8x64x512x256 (![] : Fin 0 → Fin S8x64x512x256.rank)
  gather_S15x4_S8x256x1_S8x256x4_2_0_n_n_0_2_14_wf : GatherDims.WF S15x4 S8x256x1 S8x256x4 [2] [0] [] [0] [] 2 ![1, 4]

variable [Facts₀]

def gather_S15x4_S8x256x1_S8x256x4_2_0_n_n_0_2_14 : GatherDims S15x4 S8x256x1 S8x256x4 where
  offsetDims := [2]
  collapsedSliceDims := [0]
  operandBatchingDims := []
  startIndicesBatchingDims := []
  startIndexMap := [0]
  indexVectorDim := 2
  sliceSizes := ![1, 4]
  wf := gather_S15x4_S8x256x1_S8x256x4_2_0_n_n_0_2_14_wf

class Facts : Prop extends Facts₀ where

variable [Facts]
-- ==== Proof.KernelParams.lean ====
/-
  The four parameter arrays the kernel's windows 1 … 4 stage, as functions of the arguments.

  Before its one region the kernel's program gathers a table row per (batch, feature) — the row index read
  from the integer argument, a negative one first moved up by 15 — and lays column k of the gathered rows,
  k = 0 … 3, out as an array over [8, 1, 1, 256]. `column` is that chain of operations for a column's slice
  offset; the region finds each of the four arrays at `column` of the two arguments. The gather itself is
  never read: the other program builds its parameters by the same chain.
-/
import proofs.«170518_j45406394253470_1_alg».proof.Proof.Gen.KernelIdeal.Frame
import Idealize.ShloMosaic.Lib.StableHlo.Run
import Idealize.ShloMosaic.PureOps.Ideal

noncomputable section

namespace Cert.AffineSigmoid.Kernel

open Cert.KernelIdeal Cert.KernelIdeal.Gen Idealize.ShloMosaic Idealize.ShloMosaic.TcCoe Idealize.SL.Sem
open Idealize.ShloMosaic.StableHlo

/-- Column `off 2` of the gathered table rows as an array over [8, 1, 1, 256]: wrap a negative row index,
    gather the rows, slice the column out, drop its unit axis, and insert the two unit axes. -/
def column (off : Fin 3 → Nat) (hs : S8x256x4.Slices off S8x256x1)
    (x1 : (⟨S8x256, .i32⟩ : BufTy).Contents (Elt Ideal)) (x2 : (⟨S15x4, .f32⟩ : BufTy).Contents (Elt Ideal)) :
    (⟨S8x1x1x256, .f32⟩ : BufTy).Contents (Elt Ideal) :=
  broadcastInDim S8x1x1x256 ![0, 3] bcast_S8x256_S8x1x1x256_0_3
    (shapeCast _ (extractStridedSlice S8x256x1 off
      (Host.gather gather_S15x4_S8x256x1_S8x256x4_2_0_n_n_0_2_14 x2
        (broadcastInDim S8x256x1 ![0, 1] bcast_S8x256_S8x256x1_0_1
          (select (cmpi .slt x1 (broadcastInDim S8x256 ![] bcast_S_S8x256 (constantI S_ 32 0#32)))
            (addi x1 (broadcastInDim S8x256 ![] bcast_S_S8x256 (constantI S_ 32 15#32))) x1))) hs)
      shapeCasts_S8x256x1_S8x256)

variable (m : (ℓ : Loc nD τ sig) → Buf (Elt Ideal) ℓ)

/-- Window 1's array is column 0. -/
theorem V_main_v9 (c : Dev nD) : (V m c main_v9 : S8x1x1x256.Idx → Elt Ideal .f32)
    = column ![0, 0, 0] slices_S8x256x4_S8x256x1_0_0_0 (m ((c : Thread nD τ).loc main_arg1)) (m ((c : Thread nD τ).loc main_arg2)) := by
  dsimp only [Gen.V, Gen.hostOps0]; after_results; rfl

/-- Window 2's array is column 1. -/
theorem V_main_v12 (c : Dev nD) : (V m c main_v12 : S8x1x1x256.Idx → Elt Ideal .f32)
    = column ![0, 0, 1] slices_S8x256x4_S8x256x1_0_0_1 (m ((c : Thread nD τ).loc main_arg1)) (m ((c : Thread nD τ).loc main_arg2)) := by
  dsimp only [Gen.V, Gen.hostOps0]; after_results; rfl

/-- Window 3's array is column 2. -/
theorem V_main_v15 (c : Dev nD) : (V m c main_v15 : S8x1x1x256.Idx → Elt Ideal .f32)
    = column ![0, 0, 2] slices_S8x256x4_S8x256x1_0_0_2 (m ((c : Thread nD τ).loc main_arg1)) (m ((c : Thread nD τ).loc main_arg2)) := by
  dsimp only [Gen.V, Gen.hostOps0]; after_results; rfl

/-- Window 4's array is column 3. -/
theorem V_main_v18 (c : Dev nD) : (V m c main_v18 : S8x1x1x256.Idx → Elt Ideal .f32)
    = column ![0, 0, 3] slices_S8x256x4_S8x256x1_0_0_3 (m ((c : Thread nD τ).loc main_arg1)) (m ((c : Thread nD τ).loc main_arg2)) := by
  dsimp only [Gen.V, Gen.hostOps0]; after_results; rfl

end Cert.AffineSigmoid.Kernel

end
-- ==== Proof.AffineSigmoid.lean ====
/-
  The function both programs compute, over the extended reals, and the one identity between their two
  spellings of it.

  For an array z over [8, 64, 512, 256] and four arrays e0 … e3 over [8, 1, 1, 256] (one value per batch b
  and feature f), the result at (b, n, m, f) is

      e0[b,f] + e1[b,f] · σ((z[b,n,m,f] − e2[b,f]) · e3[b,f]),        σ(x) = 1 / (1 + e^(−x)).

  One program applies σ as a single operation; the other writes the quotient out, with the float word of
  1.0 for both ones. On the extended reals σ IS that quotient (with 1/(1 + e^(+∞)) = 0 and 1/(1 + e^(−∞)) = 1),
  so the two agree at every x, the infinite ones included: no finiteness of the data is used anywhere.
-/
import Idealize.ShloMosaic.PureOps.Ideal

noncomputable section

namespace Cert.AffineSigmoid

open Idealize.ShloMosaic

/-- The data's shape, [8, 64, 512, 256]. -/
abbrev SData : Shape := ⟨4, ![8, 64, 512, 256]⟩
/-- The shape of a per-(batch, feature) parameter, [8, 1, 1, 256]. -/
abbrev SParam : Shape := ⟨4, ![8, 1, 1, 256]⟩

/-- The parameter index under a data index: (b, n, m, f) ↦ (b, 0, 0, f). -/
abbrev under (i : SData.Idx) : SParam.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨(i 3).val, (i 3).isLt⟩

/-- e0 + e1 · σ((z − e2) · e3), index by index, each parameter read at the index under the data's. -/
def affineSigmoid (z : SData.Idx → Elt Ideal .f32) (e0 e1 e2 e3 : SParam.Idx → Elt Ideal .f32) :
    SData.Idx → Elt Ideal .f32 :=
  fun i => FloatOps.addf (F := Ideal) (φ := .f32) (e0 (under i)) (FloatOps.mulf (F := Ideal) (φ := .f32) (e1 (under i))
    (FloatOps.logistic (F := Ideal) (φ := .f32)
      (FloatOps.mulf (F := Ideal) (φ := .f32) (FloatOps.subf (F := Ideal) (φ := .f32) (z i) (e2 (under i))) (e3 (under i)))))

/-- The float word 0x3F800000 is the number 1. -/
theorem word_one : FloatOps.ofBits (F := Ideal) .f32 0x3F800000#32 = (1 : EReal) := by
  rw [Ideal.ofBits_def]
  simp [Ideal.ofBits, Ideal.ieee, -EReal.coe_mul]
  norm_num

/-- σ written out as 1 / (1 + e^(−x)), the word of 1.0 standing for both ones, is σ. -/
theorem quotient_eq_logistic (x : Ideal .f32) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) x)))
    = FloatOps.logistic (F := Ideal) (φ := .f32) x := by
  rw [word_one]
  rfl

end Cert.AffineSigmoid

end
-- ==== Proof.KernelBlocks.lean ====
/-
  From what each grid point writes back to the kernel's whole result array.

  The grid is 8 × 8: point (b, q) stages rows n = 8q … 8q + 7 of batch b of the data, a block over
  [1, 8, 512, 256], and batch b of each of the four parameter arrays, a block over [1, 1, 1, 256]; it writes
  back the same rows of batch b of the result. Inside a block, position (0, r, m, f) of the data sits over
  position (0, 0, 0, f) of each parameter block, so the block the body leaves is
  e0 + e1 · σ((z − e2) · e3) of the data and parameter ARRAYS read at the array index (b, 8q + r, m, f) and the
  parameter index (b, 0, 0, f) under it: every point writes back a block of ONE array-wide function. The 64
  blocks tile the result array — index (b, n, m, f) lies in the block of point (b, n / 8) — so the array ends
  at that function.
-/
import proofs.«170518_j45406394253470_1_alg».proof.Proof.Gen.KernelIdeal.Value
import proofs.«170518_j45406394253470_1_alg».proof.Proof.AffineSigmoid
import Idealize.ShloMosaic.Lib.Pipeline.Value

noncomputable section

namespace Cert.AffineSigmoid.Kernel

open Cert.KernelIdeal Cert.KernelIdeal.Gen Cert.KernelIdeal.Value Cert.AffineSigmoid
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The result array as one function of the arrays the region finds: the data argument and the four
    parameter arrays. -/
abbrev wholeResult (c : Dev nD) : S8x64x512x256.Idx → Elt Ideal .f32 :=
  affineSigmoid (V m c main_arg0) (V m c main_v9) (V m c main_v12) (V m c main_v15) (V m c main_v18)

/-- What the body leaves at a position y of its output block, for ANY input blocks, once each input block's
    entry under y is known to be an entry of an array: the affine sigmoid of those arrays at one index. -/
theorem body_at (z : S8x64x512x256.Idx → Elt Ideal .f32) (e0 e1 e2 e3 : S8x1x1x256.Idx → Elt Ideal .f32)
    (X0 : Vec Ideal S1x8x512x256 .f32) (X1 X2 X3 X4 : Vec Ideal S1x1x1x256 .f32)
    (y : S1x8x512x256.Idx) (i : S8x64x512x256.Idx)
    (h0 : X0 (ix5_2 y) = z i) (h1 : X1 (ix5_0 y) = e0 (under i)) (h2 : X2 (ix5_1 y) = e1 (under i))
    (h3 : X3 (ix5_3 y) = e2 (under i)) (h4 : X4 (ix5_4 y) = e3 (under i)) :
    out0_5 X0 X1 X2 X3 X4 y = affineSigmoid z e0 e1 e2 e3 i := by
  unfold out0_5
  simp only [View.ld_unit_zero (S := S1x8x512x256) zero_offsets, View.ld_unit_zero (S := S1x1x1x256) zero_offsets]
  rw [canon5_eq X1 X2 X0 X3 X4 y]
  show FloatOps.addf (F := Ideal) (φ := .f32) (X1 (ix5_0 y)) (FloatOps.mulf (F := Ideal) (φ := .f32) (X2 (ix5_1 y))
    (FloatOps.logistic (F := Ideal) (φ := .f32) (FloatOps.mulf (F := Ideal) (φ := .f32)
      (FloatOps.subf (F := Ideal) (φ := .f32) (X0 (ix5_2 y)) (X3 (ix5_3 y))) (X4 (ix5_4 y))))) = _
  rw [h0, h1, h2, h3, h4]
  rfl

/-- The printed index maps, decided over the 64 grid points: the data window moves with the result window,
    each parameter window follows its batch coordinate and stays at block 0 on the other axes. -/
theorem index_maps : ∀ t : Fin cfg0.N,
    (win0_0.index t (0 : Fin 4) = win0_5.index t (0 : Fin 4) ∧ win0_0.index t (1 : Fin 4) = win0_5.index t (1 : Fin 4)
      ∧ win0_0.index t (2 : Fin 4) = 0 ∧ win0_0.index t (3 : Fin 4) = 0)
    ∧ (win0_1.index t (0 : Fin 4) = win0_5.index t (0 : Fin 4) ∧ win0_1.index t (1 : Fin 4) = 0
      ∧ win0_1.index t (2 : Fin 4) = 0 ∧ win0_1.index t (3 : Fin 4) = 0)
    ∧ (win0_2.index t (0 : Fin 4) = win0_5.index t (0 : Fin 4) ∧ win0_2.index t (1 : Fin 4) = 0
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = 0 ∧ win0_3.index t (3 : Fin 4) = 0)
    ∧ (win0_4.index t (0 : Fin 4) = win0_5.index t (0 : Fin 4) ∧ win0_4.index t (1 : Fin 4) = 0
      ∧ win0_4.index t (2 : Fin 4) = 0 ∧ win0_4.index t (3 : Fin 4) = 0)
    ∧ (win0_5.index t (2 : Fin 4) = 0 ∧ win0_5.index t (3 : Fin 4) = 0) :=
  (by decide +kernel : ∀ t : Fin grid0.N, _)

/-- Every (batch, row-group) pair is some grid point's block index. -/
theorem index_onto : ∀ (q0 : Fin 8) (q1 : Fin 8), ∃ t : Fin cfg0.N, win0_5.index t = ![q0.val, q1.val, 0, 0] :=
  (by decide +kernel : ∀ (q0 : Fin 8) (q1 : Fin 8), ∃ t : Fin grid0.N, win0_5.index t = ![q0.val, q1.val, 0, 0])

/-- WHAT POINT t WRITES BACK is block t of the array-wide function. -/
theorem flushed_eq (c : Dev nD) (t : Fin cfg0.N) :
    (dats m 0 c).flushed 5 t = ((cfg0.win 5).blk t).view.read (Elt Ideal) (wholeResult m c) := by
  rw [flushed5]
  obtain ⟨⟨a0, a1, a2, a3⟩, ⟨b0, b1, b2, b3⟩, ⟨c0, c1, c2, c3⟩, ⟨d0, d1, d2, d3⟩, ⟨f0, f1, f2, f3⟩, ⟨g2, g3⟩⟩ := index_maps t
  funext j
  have hj0 : (j 0).val < 1 := (j 0).isLt
  have hj1 : (j 1).val < 8 := (j 1).isLt
  have hj2 : (j 2).val < 512 := (j 2).isLt
  have hj3 : (j 3).val < 256 := (j 3).isLt
  show out0_5 (iblk m c 0 t) (iblk m c 1 t) (iblk m c 2 t) (iblk m c 3 t) (iblk m c 4 t) ((cfg0.win 5).xinj (grid0.coords t) j)
    = affineSigmoid (V m c main_arg0) (V m c main_v9) (V m c main_v12) (V m c main_v15) (V m c main_v18)
        (((cfg0.win 5).blk t).view.emb j)
  refine body_at (V m c main_arg0) (V m c main_v9) (V m c main_v12) (V m c main_v15) (V m c main_v18)
    (iblk m c 0 t) (iblk m c 1 t) (iblk m c 2 t) (iblk m c 3 t) (iblk m c 4 t) _ _ ?_ ?_ ?_ ?_ ?_
  · show V m c main_arg0 (((cfg0.win 0).blk t).view.emb (ix5_2 ((cfg0.win 5).xinj (grid0.coords t) j)))
      = V m c main_arg0 (((cfg0.win 5).blk t).view.emb j)
    refine congrArg (V m c main_arg0) (funext fun a => Fin.ext ?_)
    match a with
    | ⟨0, _⟩ => show win0_0.index t (0 : Fin 4) * 1 + 1 * 0 = win0_5.index t (0 : Fin 4) * 1 + 1 * (j 0).val; omega
    | ⟨1, _⟩ => show win0_0.index t (1 : Fin 4) * 8 + 1 * (j 1).val = win0_5.index t (1 : Fin 4) * 8 + 1 * (j 1).val; omega
    | ⟨2, _⟩ => show win0_0.index t (2 : Fin 4) * 512 + 1 * (j 2).val = win0_5.index t (2 : Fin 4) * 512 + 1 * (j 2).val; omega
    | ⟨3, _⟩ => show win0_0.index t (3 : Fin 4) * 256 + 1 * (j 3).val = win0_5.index t (3 : Fin 4) * 256 + 1 * (j 3).val; omega
  · show V m c main_v9 (((cfg0.win 1).blk t).view.emb (ix5_0 ((cfg0.win 5).xinj (grid0.coords t) j)))
      = V m c main_v9 (under (((cfg0.win 5).blk t).view.emb j))
    refine congrArg (V m c main_v9) (funext fun a => Fin.ext ?_)
    match a with
    | ⟨0, _⟩ => show win0_1.index t (0 : Fin 4) * 1 + 1 * 0 = win0_5.index t (0 : Fin 4) * 1 + 1 * (j 0).val; omega
    | ⟨1, _⟩ => show win0_1.index t (1 : Fin 4) * 1 + 1 * 0 = 0; omega
    | ⟨2, _⟩ => show win0_1.index t (2 : Fin 4) * 1 + 1 * 0 = 0; omega
    | ⟨3, _⟩ => show win0_1.index t (3 : Fin 4) * 256 + 1 * (j 3).val = win0_5.index t (3 : Fin 4) * 256 + 1 * (j 3).val; omega
  · show V m c main_v12 (((cfg0.win 2).blk t).view.emb (ix5_1 ((cfg0.win 5).xinj (grid0.coords t) j)))
      = V m c main_v12 (under (((cfg0.win 5).blk t).view.emb j))
    refine congrArg (V m c main_v12) (funext fun a => Fin.ext ?_)
    match a with
    | ⟨0, _⟩ => show win0_2.index t (0 : Fin 4) * 1 + 1 * 0 = win0_5.index t (0 : Fin 4) * 1 + 1 * (j 0).val; omega
    | ⟨1, _⟩ => show win0_2.index t (1 : Fin 4) * 1 + 1 * 0 = 0; omega
    | ⟨2, _⟩ => show win0_2.index t (2 : Fin 4) * 1 + 1 * 0 = 0; omega
    | ⟨3, _⟩ => show win0_2.index t (3 : Fin 4) * 256 + 1 * (j 3).val = win0_5.index t (3 : Fin 4) * 256 + 1 * (j 3).val; omega
  · show V m c main_v15 (((cfg0.win 3).blk t).view.emb (ix5_3 ((cfg0.win 5).xinj (grid0.coords t) j)))
      = V m c main_v15 (under (((cfg0.win 5).blk t).view.emb j))
    refine congrArg (V m c main_v15) (funext fun a => Fin.ext ?_)
    match a with
    | ⟨0, _⟩ => show win0_3.index t (0 : Fin 4) * 1 + 1 * 0 = win0_5.index t (0 : Fin 4) * 1 + 1 * (j 0).val; omega
    | ⟨1, _⟩ => show win0_3.index t (1 : Fin 4) * 1 + 1 * 0 = 0; omega
    | ⟨2, _⟩ => show win0_3.index t (2 : Fin 4) * 1 + 1 * 0 = 0; omega
    | ⟨3, _⟩ => show win0_3.index t (3 : Fin 4) * 256 + 1 * (j 3).val = win0_5.index t (3 : Fin 4) * 256 + 1 * (j 3).val; omega
  · show V m c main_v18 (((cfg0.win 4).blk t).view.emb (ix5_4 ((cfg0.win 5).xinj (grid0.coords t) j)))
      = V m c main_v18 (under (((cfg0.win 5).blk t).view.emb j))
    refine congrArg (V m c main_v18) (funext fun a => Fin.ext ?_)
    match a with
    | ⟨0, _⟩ => show win0_4.index t (0 : Fin 4) * 1 + 1 * 0 = win0_5.index t (0 : Fin 4) * 1 + 1 * (j 0).val; omega
    | ⟨1, _⟩ => show win0_4.index t (1 : Fin 4) * 1 + 1 * 0 = 0; omega
    | ⟨2, _⟩ => show win0_4.index t (2 : Fin 4) * 1 + 1 * 0 = 0; omega
    | ⟨3, _⟩ => show win0_4.index t (3 : Fin 4) * 256 + 1 * (j 3).val = win0_5.index t (3 : Fin 4) * 256 + 1 * (j 3).val; omega

/-- An index of the result array is in point t's block iff each coordinate is in the block's range on its axis. -/
theorem mem_block (t : Fin cfg0.N) (i : S8x64x512x256.Idx) :
    i ∈ ((cfg0.win 5).blk t).view.set ↔ ∀ a : Fin 4, win0_5.index t a * S1x8x512x256.size a ≤ (i a).val
      ∧ (i a).val < win0_5.index t a * S1x8x512x256.size a + S1x8x512x256.size a := by
  show i ∈ ((View.whole main_v19).slice (win0_5.rect t)).set ↔ _
  rw [View.set_slice_whole, Rect.mem_set_unit]
  exact Iff.rfl

/-- The blocks tile the array: (b, n, m, f) is in the block of the point with block index (b, n / 8, 0, 0). -/
theorem blocks_cover (i : S8x64x512x256.Idx) :
    ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 512 := (i 2).isLt
  have hi3 : (i 3).val < 256 := (i 3).isLt
  obtain ⟨t, ht⟩ := index_onto ⟨(i 0).val, hi0⟩ ⟨(i 1).val / 8, by omega⟩
  have q0 : win0_5.index t (0 : Fin 4) = (i 0).val := congrFun ht 0
  have q1 : win0_5.index t (1 : Fin 4) = (i 1).val / 8 := congrFun ht 1
  have q2 : win0_5.index t (2 : Fin 4) = 0 := congrFun ht 2
  have q3 : win0_5.index t (3 : Fin 4) = 0 := congrFun ht 3
  refine ⟨t, flush0_5 t, ?_⟩
  rw [mem_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 512 ≤ (i 2).val ∧ (i 2).val < win0_5.index t (2 : Fin 4) * 512 + 512; omega
  | ⟨3, _⟩ => show win0_5.index t (3 : Fin 4) * 256 ≤ (i 3).val ∧ (i 3).val < win0_5.index t (3 : Fin 4) * 256 + 256; omega

/-- THE RESULT ARRAY after the run is the array-wide function. -/
theorem final (c : Dev nD) : (dats m 0 c).arrAt 5 cfg0.N = wholeResult m c :=
  (dats m 0 c).arrAt_eq_of_cover 5 (wholeResult m c) (fun t _ => flushed_eq m c t) blocks_cover

/-- The kernel's run, read: the result array at the array-wide function, the arguments unchanged. -/
theorem run : θ_run defs (onTc (τ := τ) (main (F := Ideal))) ⟨m, fun _ => 0, ρ⟩ fun r => ∀ c : Dev nD,
      r.2.mem ((c : Thread nD τ).loc main_v19) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.AffineSigmoid.Kernel

end
-- ==== Proof.ReferenceSide.lean ====
/-
  The reference's result is the affine sigmoid of its data argument and of the four per-(batch, feature)
  parameter arrays its first operations build (the columns 0 … 3 of the gathered table rows, each laid out
  as [8, 1, 1, 256]).

  Read at an index (b, n, m, f): the sum reads its left operand, a broadcast of column 0, at (b, 0, 0, f); the
  product reads the broadcast of column 1 there; the quotient is 1 / (1 + e^(−x)) with
  x = (z[b,n,m,f] − column 2 at (b, 0, 0, f)) · column 3 at (b, 0, 0, f), the float word of 1.0 read through a
  broadcast of a scalar in both places. That quotient is σ(x). The four parameter arrays are left as they are: the
  other program builds them with the same operations, so their contents never need to be opened.
-/
import proofs.«170518_j45406394253470_1_alg».proof.Proof.Gen.ReferenceIdeal.Read
import proofs.«170518_j45406394253470_1_alg».proof.Proof.AffineSigmoid

noncomputable section

namespace Cert.AffineSigmoid.Reference

open Idealize.ShloMosaic Cert.ReferenceIdeal Cert.ReferenceIdeal.Read Cert.AffineSigmoid

/-- The reference's last stage is e0 + e1 · σ((z − e2) · e3) over its own parameter stages. -/
theorem result_eq (x0 : (⟨S8x64x512x256, .f32⟩ : BufTy).Contents (Elt Ideal))
    (x1 : (⟨S8x256, .i32⟩ : BufTy).Contents (Elt Ideal)) (x2 : (⟨S15x4, .f32⟩ : BufTy).Contents (Elt Ideal)) :
    val_main_v32 (F := Ideal) x0 x1 x2
      = affineSigmoid x0 (val_main_v9 (F := Ideal) x1 x2) (val_main_v12 (F := Ideal) x1 x2)
          (val_main_v15 (F := Ideal) x1 x2) (val_main_v18 (F := Ideal) x1 x2) := by
  funext i
  rw [val_main_v32_apply, val_main_v31_apply, val_main_v30_apply, val_main_v29_apply, val_main_v28_apply,
    val_main_v27_apply, val_main_cst_1_apply, val_main_v26_apply, val_main_v25_apply, val_main_cst_apply,
    val_main_v24_apply, val_main_v23_apply, val_main_v22_apply, val_main_v20_apply, val_main_v19_apply,
    val_main_v21_apply, quotient_eq_logistic]
  rfl

end Cert.AffineSigmoid.Reference

end
-- ==== Proof.Bridge.lean ====
/-
  The two programs compute one function of the arguments.

  The kernel's result array is the affine sigmoid of the data argument and of columns 0 … 3 of the gathered
  table rows; the reference's last stage is the affine sigmoid of the data argument and of its own four
  parameter stages. Both programs build the parameters by the same chain of operations — wrap the row index,
  gather, slice a column, reshape, broadcast to [8, 1, 1, 256] — so column k and the reference's k-th parameter
  stage are the same term, and the two results are equal without reading a single entry of the gather.
-/
import proofs.«170518_j45406394253470_1_alg».proof.Proof.KernelParams
import proofs.«170518_j45406394253470_1_alg».proof.Proof.KernelBlocks
import proofs.«170518_j45406394253470_1_alg».proof.Proof.ReferenceSide

noncomputable section

namespace Cert.AffineSigmoid.Bridge

open Idealize.ShloMosaic Idealize.ShloMosaic.TcCoe Idealize.SL.Sem Cert.AffineSigmoid
open Cert.KernelIdeal Cert.KernelIdeal.Gen

variable (m : (ℓ : Loc nD τ sig) → Buf (Elt Ideal) ℓ)

/-- The kernel's whole result array is the reference's last stage of the same three arguments. -/
theorem kernel_result_eq (c : Dev nD) :
    Kernel.wholeResult m c
      = Cert.ReferenceIdeal.Read.val_main_v32 (F := Ideal) (m ((c : Thread nD τ).loc main_arg0))
          (m ((c : Thread nD τ).loc main_arg1)) (m ((c : Thread nD τ).loc main_arg2)) := by
  rw [Reference.result_eq]
  show affineSigmoid (V m c main_arg0) (V m c main_v9) (V m c main_v12) (V m c main_v15) (V m c main_v18) = _
  rw [V_main_arg0 m c, Kernel.V_main_v9 m c, Kernel.V_main_v12 m c, Kernel.V_main_v15 m c, Kernel.V_main_v18 m c]
  rfl

end Cert.AffineSigmoid.Bridge

end
-- ==== Proof.lean ====
/-
  An affine sigmoid with per-(batch, feature) parameters gathered from a small table, as a tiled kernel and as
  whole-array operations: the two compute the same array over the extended reals.

  Both programs first gather a row of the 15 × 4 table for every (batch b, feature f) — the row index read from the
  integer argument, a negative one moved up by 15 — and lay its four entries out as arrays e0, e1, e2, e3 over
  [8, 1, 1, 256]. The result at (b, n, m, f) is

      e0[b,f] + e1[b,f] · σ((z[b,n,m,f] − e2[b,f]) · e3[b,f]),        σ(x) = 1 / (1 + e^(−x)).

  The kernel computes it tile by tile on an 8 × 8 grid (eight rows n of one batch per tile) with σ as one operation;
  the reference computes it on whole arrays with σ written out as the quotient. The proof has four parts:
    * AffineSigmoid — the function, and that the written-out quotient is σ on every extended real;
    * ReferenceSide — the reference's result, read index by index, is that function of its parameter arrays;
    * KernelParams, KernelBlocks — the arrays the kernel's tiles read, what each tile writes back, and that the 64 tiles
      cover the result array, so that it ends at that function too;
    * Bridge — the parameter arrays of the two programs are one term, so the gather is never opened.
  No step divides, cancels or distributes, so nothing needs the inputs to be finite: the precondition is not used.
  The three termination-and-no-fault claims are the generated ones; the kernel's idealization rewrote nothing, so
  there is nothing to preserve.
-/
import proofs.«170518_j45406394253470_1_alg».proof.Defs
import proofs.«170518_j45406394253470_1_alg».proof.Proof.Gen.Kernel
import proofs.«170518_j45406394253470_1_alg».proof.Proof.Gen.Kernel.Skeleton
import proofs.«170518_j45406394253470_1_alg».proof.Proof.Gen.Kernel.Launch
import proofs.«170518_j45406394253470_1_alg».proof.Proof.Gen.Kernel.Points
import proofs.«170518_j45406394253470_1_alg».proof.Proof.Gen.Kernel.Frame
import proofs.«170518_j45406394253470_1_alg».proof.Proof.Gen.KernelIdeal
import proofs.«170518_j45406394253470_1_alg».proof.Proof.Gen.KernelIdeal.Skeleton
import proofs.«170518_j45406394253470_1_alg».proof.Proof.Gen.KernelIdeal.Launch
import proofs.«170518_j45406394253470_1_alg».proof.Proof.Gen.KernelIdeal.Points
import proofs.«170518_j45406394253470_1_alg».proof.Proof.Gen.KernelIdeal.Frame
import proofs.«170518_j45406394253470_1_alg».proof.Proof.Gen.ReferenceIdeal
import proofs.«170518_j45406394253470_1_alg».proof.Proof.Gen.Pre_finite_inputs
import proofs.«170518_j45406394253470_1_alg».proof.Proof.Gen.KernelIdeal.Value
import proofs.«170518_j45406394253470_1_alg».proof.Proof.Gen.ReferenceIdeal.Run
import proofs.«170518_j45406394253470_1_alg».proof.Proof.Gen.ReferenceIdeal.Read
import proofs.«170518_j45406394253470_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the same result array: the kernel's
    tiles assemble to the affine sigmoid of the arguments, which is the reference's last stage. -/
theorem algebraic : Cert.algebraic_KernelIdeal_ReferenceIdeal := by
  intro m ρ m' ρ' _ hagree
  refine ⟨fun c => Cert.AffineSigmoid.Kernel.wholeResult m c, Cert.AffineSigmoid.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v32_eq]
  exact (Cert.AffineSigmoid.Bridge.kernel_result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
